-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S1000000x32 : Shape := ⟨2, ![1000000, 32]⟩
abbrev S32x144 : Shape := ⟨2, ![32, 144]⟩
abbrev S144 : Shape := ⟨1, ![144]⟩
abbrev S144x144 : Shape := ⟨2, ![144, 144]⟩
abbrev S144x1 : Shape := ⟨2, ![144, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S32x144 : S_.BroadcastsInDim S32x144 (![] : Fin 0 → Fin S32x144.rank)
  reducesTo_S32x144_S_d0_1 : S32x144.ReducesTo [0, 1] S_
  bcast_S_S144 : S_.BroadcastsInDim S144 (![] : Fin 0 → Fin S144.rank)
  reducesTo_S144_S_d0 : S144.ReducesTo [0] S_
  bcast_S_S144x144 : S_.BroadcastsInDim S144x144 (![] : Fin 0 → Fin S144x144.rank)
  reducesTo_S144x144_S_d0_1 : S144x144.ReducesTo [0, 1] S_
  bcast_S_S144x1 : S_.BroadcastsInDim S144x1 (![] : Fin 0 → Fin S144x1.rank)
  reducesTo_S144x1_S_d0_1 : S144x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S144x144 .f32) (main_arg9 : FVec F S144 .f32) (main_arg10 : FVec F S144x1 .f32) (main_arg11 : FVec F S1 .f32) (main_v33 : IVec S_ 1) : IVec S_ 1 :=
  let main_v34 : FVec F S144x144 .f32 := Host.absf main_arg8
  let main_cst_12 : FVec F S_ .f32 := constant S_ .f32 0x7F800000#32
  let main_v35 : FVec F S144x144 .f32 := broadcastInDim S144x144 ![] bcast_S_S144x144 main_cst_12
  let main_v36 : IVec S144x144 1 := cmpf .olt main_v34 main_v35
  let main_c_13 : IVec S_ 1 := constantI S_ 1 1#1
  let main_v37 : IVec S_ 1 := (fun x v => Host.reduce IntOp.andi x v reducesTo_S144x144_S_d0_1 h_S_) main_v36 main_c_13
  let main_v38 : IVec S_ 1 := andi main_v33 main_v37
  let main_v39 : FVec F S144 .f32 := Host.absf main_arg9
  let main_cst_14 : FVec F S_ .f32 := constant S_ .f32 0x7F800000#32
  let main_v40 : FVec F S144 .f32 := broadcastInDim S144 ![] bcast_S_S144 main_cst_14
  let main_v41 : IVec S144 1 := cmpf .olt main_v39 main_v40
  let main_c_15 : IVec S_ 1 := constantI S_ 1 1#1
  let main_v42 : IVec S_ 1 := (fun x v => Host.reduce IntOp.andi x v reducesTo_S144_S_d0 h_S_) main_v41 main_c_15
  let main_v43 : IVec S_ 1 := andi main_v38 main_v42
  let main_v44 : FVec F S144x1 .f32 := Host.absf main_arg10
  let main_cst_16 : FVec F S_ .f32 := constant S_ .f32 0x7F800000#32
  let main_v45 : FVec F S144x1 .f32 := broadcastInDim S144x1 ![] bcast_S_S144x1 main_cst_16
  let main_v46 : IVec S144x1 1 := cmpf .olt main_v44 main_v45
  let main_c_17 : IVec S_ 1 := constantI S_ 1 1#1
  let main_v47 : IVec S_ 1 := (fun x v => Host.reduce IntOp.andi x v reducesTo_S144x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S144 .f32) (main_arg6 : FVec F S144x144 .f32) (main_arg7 : FVec F S144 .f32) (main_arg8 : FVec F S144x144 .f32) (main_arg9 : FVec F S144 .f32) (main_arg10 : FVec F S144x1 .f32) (main_arg11 : FVec F S1 .f32) (main_v13 : IVec S_ 1) (main_v16 : IVec S144x144 1) : IVec S_ 1 :=
  let main_c_5 : IVec S_ 1 := constantI S_ 1 1#1
  let main_v17 : IVec S_ 1 := (fun x v => Host.reduce IntOp.andi x v reducesTo_S144x144_S_d0_1 h_S_) main_v16 main_c_5
  let main_v18 : IVec S_ 1 := andi main_v13 main_v17
  let main_v19 : FVec F S144 .f32 := Host.absf main_arg5
  let main_cst_6 : FVec F S_ .f32 := constant S_ .f32 0x7F800000#32
  let main_v20 : FVec F S144 .f32 := broadcastInDim S144 ![] bcast_S_S144 main_cst_6
  let main_v21 : IVec S144 1 := cmpf .olt main_v19 main_v20
  let main_c_7 : IVec S_ 1 := constantI S_ 1 1#1
  let main_v22 : IVec S_ 1 := (fun x v => Host.reduce IntOp.andi x v reducesTo_S144_S_d0 h_S_) main_v21 main_c_7
  let main_v23 : IVec S_ 1 := andi main_v18 main_v22
  let main_v24 : FVec F S144x144 .f32 := Host.absf main_arg6
  let main_cst_8 : FVec F S_ .f32 := constant S_ .f32 0x7F800000#32
  let main_v25 : FVec F S144x144 .f32 := broadcastInDim S144x144 ![] bcast_S_S144x144 main_cst_8
  let main_v26 : IVec S144x144 1 := cmpf .olt main_v24 main_v25
  let main_c_9 : IVec S_ 1 := constantI S_ 1 1#1
  let main_v27 : IVec S_ 1 := (fun x v => Host.reduce IntOp.andi x v reducesTo_S144x144_S_d0_1 h_S_) main_v26 main_c_9
  let main_v28 : IVec S_ 1 := andi main_v23 main_v27
  let main_v29 : FVec F S144 .f32 := Host.absf main_arg7
  let main_cst_10 : FVec F S_ .f32 := constant S_ .f32 0x7F800000#32
  let main_v30 : FVec F S144 .f32 := broadcastInDim S144 ![] bcast_S_S144 main_cst_10
  let main_v31 : IVec S144 1 := cmpf .olt main_v29 main_v30
  let main_c_11 : IVec S_ 1 := constantI S_ 1 1#1
  let main_v32 : IVec S_ 1 := (fun x v => Host.reduce IntOp.andi x v reducesTo_S144_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x1 .f32) (main_arg1 : IVec S1000000x32 32) (main_arg2 : FVec F S32x144 .f32) (main_arg3 : FVec F S144 .f32) (main_arg4 : FVec F S144x144 .f32) (main_arg5 : FVec F S144 .f32) (main_arg6 : FVec F S144x144 .f32) (main_arg7 : FVec F S144 .f32) (main_arg8 : FVec F S144x144 .f32) (main_arg9 : FVec F S144 .f32) (main_arg10 : FVec F S144x1 .f32) (main_arg11 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S32x144 .f32 := Host.absf main_arg2
  let main_cst_0 : FVec F S_ .f32 := constant S_ .f32 0x7F800000#32
  let main_v5 : FVec F S32x144 .f32 := broadcastInDim S32x144 ![] bcast_S_S32x144 main_cst_0
  let main_v6 : IVec S32x144 1 := cmpf .olt main_v4 main_v5
  let main_c_1 : IVec S_ 1 := constantI S_ 1 1#1
  let main_v7 : IVec S_ 1 := (fun x v => Host.reduce IntOp.andi x v reducesTo_S32x144_S_d0_1 h_S_) main_v6 main_c_1
  let main_v8 : IVec S_ 1 := andi main_v3 main_v7
  let main_v9 : FVec F S144 .f32 := Host.absf main_arg3
  let main_cst_2 : FVec F S_ .f32 := constant S_ .f32 0x7F800000#32
  let main_v10 : FVec F S144 .f32 := broadcastInDim S144 ![] bcast_S_S144 main_cst_2
  let main_v11 : IVec S144 1 := cmpf .olt main_v9 main_v10
  let main_c_3 : IVec S_ 1 := constantI S_ 1 1#1
  let main_v12 : IVec S_ 1 := (fun x v => Host.reduce IntOp.andi x v reducesTo_S144_S_d0 h_S_) main_v11 main_c_3
  let main_v13 : IVec S_ 1 := andi main_v8 main_v12
  let main_v14 : FVec F S144x144 .f32 := Host.absf main_arg4
  let main_cst_4 : FVec F S_ .f32 := constant S_ .f32 0x7F800000#32
  let main_v15 : FVec F S144x144 .f32 := broadcastInDim S144x144 ![] bcast_S_S144x144 main_cst_4
  let main_v16 : IVec S144x144 1 := cmpf .olt main_v14 main_v15
  fn_part1 (F := F) main_arg5 main_arg6 main_arg7 main_arg8 main_arg9 main_arg10 main_arg11 main_v13 main_v16
-- ==== Kernel.lean ====
abbrev S100000x1 : Shape := ⟨2, ![100000, 1]⟩
abbrev S1000000x32 : Shape := ⟨2, ![1000000, 32]⟩
abbrev S32x144 : Shape := ⟨2, ![32, 144]⟩
abbrev S144 : Shape := ⟨1, ![144]⟩
abbrev S144x144 : Shape := ⟨2, ![144, 144]⟩
abbrev S144x1 : Shape := ⟨2, ![144, 1]⟩
abbrev S1 : Shape := ⟨1, ![1]⟩
abbrev S_ : Shape := ⟨0, ![]⟩
abbrev S1000000x32x1 : Shape := ⟨3, ![1000000, 32, 1]⟩
abbrev S1000000x32x2 : Shape := ⟨3, ![1000000, 32, 2]⟩
abbrev S1x144 : Shape := ⟨2, ![1, 144]⟩
abbrev S1x1 : Shape := ⟨2, ![1, 1]⟩
abbrev S1000000x1 : Shape := ⟨2, ![1000000, 1]⟩
abbrev S8000x32 : Shape := ⟨2, ![8000, 32]⟩
abbrev S8000x1 : Shape := ⟨2, ![8000, 1]⟩
abbrev S8000x144 : Shape := ⟨2, ![8000, 144]⟩

abbrev nBuf : Space → Nat
  | .hbm => 38
  | .vmem => 14
  | .smem => 0
  | _ => 0

abbrev bufTy : (tb : Table) → Fin (tcTables nBuf tb) → BufTy
  | .hbm, ⟨0, _⟩ => ⟨S100000x1, .f32⟩
  | .hbm, ⟨1, _⟩ => ⟨S1000000x32, .i32⟩
  | .hbm, ⟨2, _⟩ => ⟨S32x144, .f32⟩
  | .hbm, ⟨3, _⟩ => ⟨S144, .f32⟩
  | .hbm, ⟨4, _⟩ => ⟨S144x144, .f32⟩
  | .hbm, ⟨5, _⟩ => ⟨S144, .f32⟩
  | .hbm, ⟨6, _⟩ => ⟨S144x144, .f32⟩
  | .hbm, ⟨7, _⟩ => ⟨S144, .f32⟩
  | .hbm, ⟨8, _⟩ => ⟨S144x144, .f32⟩
  | .hbm, ⟨9, _⟩ => ⟨S144, .f32⟩
  | .hbm, ⟨10, _⟩ => ⟨S144x1, .f32⟩
  | .hbm, ⟨11, _⟩ => ⟨S1, .f32⟩
  | .hbm, ⟨12, _⟩ => ⟨S100000x1, .bf16⟩
  | .hbm, ⟨13, _⟩ => ⟨S_, .i32⟩
  | .hbm, ⟨14, _⟩ => ⟨S1000000x32, .i32⟩
  | .hbm, ⟨15, _⟩ => ⟨S1000000x32, .i1⟩
  | .hbm, ⟨16, _⟩ => ⟨S_, .i32⟩
  | .hbm, ⟨17, _⟩ => ⟨S1000000x32, .i32⟩
  | .hbm, ⟨18, _⟩ => ⟨S1000000x32, .i32⟩
  | .hbm, ⟨19, _⟩ => ⟨S1000000x32, .i32⟩
  | .hbm, ⟨20, _⟩ => ⟨S_, .i32⟩
  | .hbm, ⟨21, _⟩ => ⟨S1000000x32, .i32⟩
  | .hbm, ⟨22, _⟩ => ⟨S1000000x32, .i32⟩
  | .hbm, ⟨23, _⟩ => ⟨S1000000x32x1, .i32⟩
  | .hbm, ⟨24, _⟩ => ⟨S1000000x32x1, .i32⟩
  | .hbm, ⟨25, _⟩ => ⟨S1000000x32x2, .i32⟩
  | .hbm, ⟨26, _⟩ => ⟨S1000000x32, .bf16⟩
  | .hbm, ⟨27, _⟩ => ⟨S32x144, .bf16⟩
  | .hbm, ⟨28, _⟩ => ⟨S144x144, .bf16⟩
  | .hbm, ⟨29, _⟩ => ⟨S144x144, .bf16⟩
  | .hbm, ⟨30, _⟩ => ⟨S144x144, .bf16⟩
  | .hbm, ⟨31, _⟩ => ⟨S144x1, .bf16⟩
  | .hbm, ⟨32, _⟩ => ⟨S1x144, .f32⟩
  | .hbm, ⟨33, _⟩ => ⟨S1x144, .f32⟩
  | .hbm, ⟨34, _⟩ => ⟨S1x144, .f32⟩
  | .hbm, ⟨35, _⟩ => ⟨S1x144, .f32⟩
  | .hbm, ⟨36, _⟩ => ⟨S1x1, .f32⟩
  | .hbm, ⟨37, _⟩ => ⟨S1000000x1, .f32⟩
  | .local _ .vmem, ⟨0, _⟩ => ⟨S8000x32, .bf16⟩
  | .local _ .vmem, ⟨1, _⟩ => ⟨S8000x32, .bf16⟩
  | .local _ .vmem, ⟨2, _⟩ => ⟨S32x144, .bf16⟩
  | .local _ .vmem, ⟨3, _⟩ => ⟨S1x144, .f32⟩
  | .local _ .vmem, ⟨4, _⟩ => ⟨S144x144, .bf16⟩
  | .local _ .vmem, ⟨5, _⟩ => ⟨S1x144, .f32⟩
  | .local _ .vmem, ⟨6, _⟩ => ⟨S144x144, .bf16⟩
  | .local _ .vmem, ⟨7, _⟩ => ⟨S1x144, .f32⟩
  | .local _ .vmem, ⟨8, _⟩ => ⟨S144x144, .bf16⟩
  | .local _ .vmem, ⟨9, _⟩ => ⟨S1x144, .f32⟩
  | .local _ .vmem, ⟨10, _⟩ => ⟨S144x1, .bf16⟩
  | .local _ .vmem, ⟨11, _⟩ => ⟨S1x1, .f32⟩
  | .local _ .vmem, ⟨12, _⟩ => ⟨S8000x1, .f32⟩
  | .local _ .vmem, ⟨13, _⟩ => ⟨S8000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S144x144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S144x144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S144x144 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S144x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  bcast_S_S1000000x32 : S_.BroadcastsInDim S1000000x32 (![] : Fin 0 → Fin S1000000x32.rank)
  bcast_S1000000x32_S1000000x32x1_0_1 : S1000000x32.BroadcastsInDim S1000000x32x1 (![0, 1] : Fin 2 → Fin S1000000x32x1.rank)
  concatenates_S1000000x32x1_S1000000x32x1_S1000000x32x2_d2 : Shape.Concatenates [S1000000x32x1, S1000000x32x1] S1000000x32x2 2
  shapeCasts_S144_S1x144 : S144.ShapeCasts S1x144
  shapeCasts_S1_S1x1 : S1.ShapeCasts S1x1
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S32x144_S32x144_0_0 : ∀ a, (![0, 0] : Fin 2 → Nat) a + S32x144.size a ≤ S32x144.size a
  h_S32x144 : 0 < S32x144.numel
  shapeCasts_S32x144_S32x144 : S32x144.ShapeCasts S32x144
  inb_S1x144_S1x144_0_0 : ∀ a, (![0, 0] : Fin 2 → Nat) a + S1x144.size a ≤ S1x144.size a
  h_S1x144 : 0 < S1x144.numel
  shapeCasts_S1x144_S1x144 : S1x144.ShapeCasts S1x144
  broadcasts_S1x144_S8000x144 : S1x144.Broadcasts S8000x144
  inb_S144x144_S144x144_0_0 : ∀ a, (![0, 0] : Fin 2 → Nat) a + S144x144.size a ≤ S144x144.size a
  h_S144x144 : 0 < S144x144.numel
  shapeCasts_S144x144_S144x144 : S144x144.ShapeCasts S144x144
  inb_S144x1_S144x1_0_0 : ∀ a, (![0, 0] : Fin 2 → Nat) a + S144x1.size a ≤ S144x1.size a
  h_S144x1 : 0 < S144x1.numel
  shapeCasts_S144x1_S144x1 : S144x1.ShapeCasts S144x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  gather_S100000x1_S1000000x32x2_S1000000x32_n_01_n_n_01_2_11_wf : GatherDims.WF S100000x1 S1000000x32x2 S1000000x32 [] [0, 1] [] [0, 1] [] 2 ![1, 1]
  dot_S8000x32_S32x144_S8000x144_1_0_0_1_n_n_wf : DotDims.WF S8000x32 S32x144 S8000x144 [1] [0] [0] [1] [] []
  dot_S8000x144_S144x144_S8000x144_1_0_0_1_n_n_wf : DotDims.WF S8000x144 S144x144 S8000x144 [1] [0] [0] [1] [] []
  dot_S8000x144_S144x1_S8000x1_1_0_0_1_n_n_wf : DotDims.WF S8000x144 S144x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S1000000x32.size a
  hwx0_0 : ∀ i : grid0.Coords, EltTy.bits .bf16 = 32 ∨ (Rect.block (s := S1000000x32) S8000x32.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x144.size a ≤ S32x144.size a
  hwx0_1 : ∀ i : grid0.Coords, EltTy.bits .bf16 = 32 ∨ (Rect.block (s := S32x144) S32x144.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x144.size a ≤ S1x144.size a
  hwx0_2 : ∀ i : grid0.Coords, EltTy.bits .f32 = 32 ∨ (Rect.block (s := S1x144) S1x144.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S144x144.size a ≤ S144x144.size a
  hwx0_3 : ∀ i : grid0.Coords, EltTy.bits .bf16 = 32 ∨ (Rect.block (s := S144x144) S144x144.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x144.size a ≤ S1x144.size a
  hwx0_4 : ∀ i : grid0.Coords, EltTy.bits .f32 = 32 ∨ (Rect.block (s := S1x144) S1x144.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S144x144.size a ≤ S144x144.size a
  hwx0_5 : ∀ i : grid0.Coords, EltTy.bits .bf16 = 32 ∨ (Rect.block (s := S144x144) S144x144.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x144.size a ≤ S1x144.size a
  hwx0_6 : ∀ i : grid0.Coords, EltTy.bits .f32 = 32 ∨ (Rect.block (s := S1x144) S1x144.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S144x144.size a ≤ S144x144.size a
  hwx0_7 : ∀ i : grid0.Coords, EltTy.bits .bf16 = 32 ∨ (Rect.block (s := S144x144) S144x144.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x144.size a ≤ S1x144.size a
  hwx0_8 : ∀ i : grid0.Coords, EltTy.bits .f32 = 32 ∨ (Rect.block (s := S1x144) S1x144.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S144x1.size a ≤ S144x1.size a
  hwx0_9 : ∀ i : grid0.Coords, EltTy.bits .bf16 = 32 ∨ (Rect.block (s := S144x1) S144x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8000x1.size a ≤ S1000000x1.size a
  hwx0_11 : ∀ i : grid0.Coords, EltTy.bits .f32 = 32 ∨ (Rect.block (s := S1000000x1) S8000x1.size (cc0_transform_11 i) (hinb0_11 i)).WholeWords (EltTy.packing .f32)

variable [Facts₀]

def gather_S100000x1_S1000000x32x2_S1000000x32_n_01_n_n_01_2_11 : GatherDims S100000x1 S1000000x32x2 S1000000x32 where
  offsetDims := []
  collapsedSliceDims := [0, 1]
  operandBatchingDims := []
  startIndicesBatchingDims := []
  startIndexMap := [0, 1]
  indexVectorDim := 2
  sliceSizes := ![1, 1]
  wf := gather_S100000x1_S1000000x32x2_S1000000x32_n_01_n_n_01_2_11_wf
def dot_S8000x32_S32x144_S8000x144_1_0_0_1_n_n : DotDims S8000x32 S32x144 S8000x144 where
  lhsContracting := [1]
  rhsContracting := [0]
  lhsNonContracting := [0]
  rhsNonContracting := [1]
  lhsBatch := []
  rhsBatch := []
  wf := dot_S8000x32_S32x144_S8000x144_1_0_0_1_n_n_wf
def dot_S8000x144_S144x144_S8000x144_1_0_0_1_n_n : DotDims S8000x144 S144x144 S8000x144 where
  lhsContracting := [1]
  rhsContracting := [0]
  lhsNonContracting := [0]
  rhsNonContracting := [1]
  lhsBatch := []
  rhsBatch := []
  wf := dot_S8000x144_S144x144_S8000x144_1_0_0_1_n_n_wf
def dot_S8000x144_S144x1_S8000x1_1_0_0_1_n_n : DotDims S8000x144 S144x1 S8000x1 where
  lhsContracting := [1]
  rhsContracting := [0]
  lhsNonContracting := [0]
  rhsNonContracting := [1]
  lhsBatch := []
  rhsBatch := []
  wf := dot_S8000x144_S144x1_S8000x1_1_0_0_1_n_n_wf

abbrev win0_0 : Pipeline.Window sig grid0 :=
  Pipeline.Window.ofSpec (Memref.whole main_v11) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S32x144.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x144.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S144x144.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x144.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S144x144.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x144.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S144x144.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x144.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S144x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v22) S8000x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x1 : Shape := ⟨2, ![100000, 1]⟩
abbrev S1000000x32 : Shape := ⟨2, ![1000000, 32]⟩
abbrev S32x144 : Shape := ⟨2, ![32, 144]⟩
abbrev S144 : Shape := ⟨1, ![144]⟩
abbrev S144x144 : Shape := ⟨2, ![144, 144]⟩
abbrev S144x1 : Shape := ⟨2, ![144, 1]⟩
abbrev S1 : Shape := ⟨1, ![1]⟩
abbrev S_ : Shape := ⟨0, ![]⟩
abbrev S1000000x32x1 : Shape := ⟨3, ![1000000, 32, 1]⟩
abbrev S1000000x32x2 : Shape := ⟨3, ![1000000, 32, 2]⟩
abbrev S1000000x144 : Shape := ⟨2, ![1000000, 144]⟩
abbrev S1x144 : Shape := ⟨2, ![1, 144]⟩
abbrev S1000000x1 : Shape := ⟨2, ![1000000, 1]⟩
abbrev S1x1 : Shape := ⟨2, ![1, 1]⟩

abbrev nBuf : Space → Nat
  | .hbm => 58
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S1000000x32, .i32⟩
  | .hbm, ⟨2, _⟩ => ⟨S32x144, .f32⟩
  | .hbm, ⟨3, _⟩ => ⟨S144, .f32⟩
  | .hbm, ⟨4, _⟩ => ⟨S144x144, .f32⟩
  | .hbm, ⟨5, _⟩ => ⟨S144, .f32⟩
  | .hbm, ⟨6, _⟩ => ⟨S144x144, .f32⟩
  | .hbm, ⟨7, _⟩ => ⟨S144, .f32⟩
  | .hbm, ⟨8, _⟩ => ⟨S144x144, .f32⟩
  | .hbm, ⟨9, _⟩ => ⟨S144, .f32⟩
  | .hbm, ⟨10, _⟩ => ⟨S144x1, .f32⟩
  | .hbm, ⟨11, _⟩ => ⟨S1, .f32⟩
  | .hbm, ⟨12, _⟩ => ⟨S_, .i32⟩
  | .hbm, ⟨13, _⟩ => ⟨S1000000x32, .i32⟩
  | .hbm, ⟨14, _⟩ => ⟨S1000000x32, .i1⟩
  | .hbm, ⟨15, _⟩ => ⟨S_, .i32⟩
  | .hbm, ⟨16, _⟩ => ⟨S1000000x32, .i32⟩
  | .hbm, ⟨17, _⟩ => ⟨S1000000x32, .i32⟩
  | .hbm, ⟨18, _⟩ => ⟨S1000000x32, .i32⟩
  | .hbm, ⟨19, _⟩ => ⟨S_, .i32⟩
  | .hbm, ⟨20, _⟩ => ⟨S1000000x32, .i32⟩
  | .hbm, ⟨21, _⟩ => ⟨S1000000x32, .i32⟩
  | .hbm, ⟨22, _⟩ => ⟨S1000000x32x1, .i32⟩
  | .hbm, ⟨23, _⟩ => ⟨S1000000x32x1, .i32⟩
  | .hbm, ⟨24, _⟩ => ⟨S1000000x32x2, .i32⟩
  | .hbm, ⟨25, _⟩ => ⟨S1000000x32, .f32⟩
  | .hbm, ⟨26, _⟩ => ⟨S1000000x144, .f32⟩
  | .hbm, ⟨27, _⟩ => ⟨S1x144, .f32⟩
  | .hbm, ⟨28, _⟩ => ⟨S1000000x144, .f32⟩
  | .hbm, ⟨29, _⟩ => ⟨S1000000x144, .f32⟩
  | .hbm, ⟨30, _⟩ => ⟨S_, .f32⟩
  | .hbm, ⟨31, _⟩ => ⟨S1000000x144, .f32⟩
  | .hbm, ⟨32, _⟩ => ⟨S1000000x144, .f32⟩
  | .hbm, ⟨33, _⟩ => ⟨S1000000x144, .f32⟩
  | .hbm, ⟨34, _⟩ => ⟨S1x144, .f32⟩
  | .hbm, ⟨35, _⟩ => ⟨S1000000x144, .f32⟩
  | .hbm, ⟨36, _⟩ => ⟨S1000000x144, .f32⟩
  | .hbm, ⟨37, _⟩ => ⟨S_, .f32⟩
  | .hbm, ⟨38, _⟩ => ⟨S1000000x144, .f32⟩
  | .hbm, ⟨39, _⟩ => ⟨S1000000x144, .f32⟩
  | .hbm, ⟨40, _⟩ => ⟨S1000000x144, .f32⟩
  | .hbm, ⟨41, _⟩ => ⟨S1x144, .f32⟩
  | .hbm, ⟨42, _⟩ => ⟨S1000000x144, .f32⟩
  | .hbm, ⟨43, _⟩ => ⟨S1000000x144, .f32⟩
  | .hbm, ⟨44, _⟩ => ⟨S_, .f32⟩
  | .hbm, ⟨45, _⟩ => ⟨S1000000x144, .f32⟩
  | .hbm, ⟨46, _⟩ => ⟨S1000000x144, .f32⟩
  | .hbm, ⟨47, _⟩ => ⟨S1000000x144, .f32⟩
  | .hbm, ⟨48, _⟩ => ⟨S1x144, .f32⟩
  | .hbm, ⟨49, _⟩ => ⟨S1000000x144, .f32⟩
  | .hbm, ⟨50, _⟩ => ⟨S1000000x144, .f32⟩
  | .hbm, ⟨51, _⟩ => ⟨S_, .f32⟩
  | .hbm, ⟨52, _⟩ => ⟨S1000000x144, .f32⟩
  | .hbm, ⟨53, _⟩ => ⟨S1000000x144, .f32⟩
  | .hbm, ⟨54, _⟩ => ⟨S1000000x1, .f32⟩
  | .hbm, ⟨55, _⟩ => ⟨S1x1, .f32⟩
  | .hbm, ⟨56, _⟩ => ⟨S1000000x1, .f32⟩
  | .hbm, ⟨57, _⟩ => ⟨S1000000x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call0_cst : Ref sig .tc := ⟨.hbm, 30, rfl⟩
abbrev main_call0_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call1_cst : Ref sig .tc := ⟨.hbm, 37, rfl⟩
abbrev main_call1_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call2_cst : Ref sig .tc := ⟨.hbm, 44, rfl⟩
abbrev main_call2_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call3_cst : Ref sig .tc := ⟨.hbm, 51, rfl⟩
abbrev main_call3_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩

abbrev nD : Nat := 1
abbrev τ : Topo := Topo.v7x

variable {F : FTy → Type} [FloatOps F]

class Facts₀ : Prop where
  bcast_S_S1000000x32 : S_.BroadcastsInDim S1000000x32 (![] : Fin 0 → Fin S1000000x32.rank)
  bcast_S1000000x32_S1000000x32x1_0_1 : S1000000x32.BroadcastsInDim S1000000x32x1 (![0, 1] : Fin 2 → Fin S1000000x32x1.rank)
  concatenates_S1000000x32x1_S1000000x32x1_S1000000x32x2_d2 : Shape.Concatenates [S1000000x32x1, S1000000x32x1] S1000000x32x2 2
  bcast_S144_S1x144_1 : S144.BroadcastsInDim S1x144 (![1] : Fin 1 → Fin S1x144.rank)
  bcast_S1x144_S1000000x144_0_1 : S1x144.BroadcastsInDim S1000000x144 (![0, 1] : Fin 2 → Fin S1000000x144.rank)
  bcast_S_S1000000x144 : S_.BroadcastsInDim S1000000x144 (![] : Fin 0 → Fin S1000000x144.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  gather_S100000x1_S1000000x32x2_S1000000x32_n_01_n_n_01_2_11_wf : GatherDims.WF S100000x1 S1000000x32x2 S1000000x32 [] [0, 1] [] [0, 1] [] 2 ![1, 1]
  dot_S1000000x32_S32x144_S1000000x144_1_0_0_1_n_n_wf : DotDims.WF S1000000x32 S32x144 S1000000x144 [1] [0] [0] [1] [] []
  dot_S1000000x144_S144x144_S1000000x144_1_0_0_1_n_n_wf : DotDims.WF S1000000x144 S144x144 S1000000x144 [1] [0] [0] [1] [] []
  dot_S1000000x144_S144x1_S1000000x1_1_0_0_1_n_n_wf : DotDims.WF S1000000x144 S144x1 S1000000x1 [1] [0] [0] [1] [] []

variable [Facts₀]

def gather_S100000x1_S1000000x32x2_S1000000x32_n_01_n_n_01_2_11 : GatherDims S100000x1 S1000000x32x2 S1000000x32 where
  offsetDims := []
  collapsedSliceDims := [0, 1]
  operandBatchingDims := []
  startIndicesBatchingDims := []
  startIndexMap := [0, 1]
  indexVectorDim := 2
  sliceSizes := ![1, 1]
  wf := gather_S100000x1_S1000000x32x2_S1000000x32_n_01_n_n_01_2_11_wf
def dot_S1000000x32_S32x144_S1000000x144_1_0_0_1_n_n : DotDims S1000000x32 S32x144 S1000000x144 where
  lhsContracting := [1]
  rhsContracting := [0]
  lhsNonContracting := [0]
  rhsNonContracting := [1]
  lhsBatch := []
  rhsBatch := []
  wf := dot_S1000000x32_S32x144_S1000000x144_1_0_0_1_n_n_wf
def dot_S1000000x144_S144x144_S1000000x144_1_0_0_1_n_n : DotDims S1000000x144 S144x144 S1000000x144 where
  lhsContracting := [1]
  rhsContracting := [0]
  lhsNonContracting := [0]
  rhsNonContracting := [1]
  lhsBatch := []
  rhsBatch := []
  wf := dot_S1000000x144_S144x144_S1000000x144_1_0_0_1_n_n_wf
def dot_S1000000x144_S144x1_S1000000x1_1_0_0_1_n_n : DotDims S1000000x144 S144x1 S1000000x1 where
  lhsContracting := [1]
  rhsContracting := [0]
  lhsNonContracting := [0]
  rhsNonContracting := [1]
  lhsBatch := []
  rhsBatch := []
  wf := dot_S1000000x144_S144x1_S1000000x1_1_0_0_1_n_n_wf

class Facts : Prop extends Facts₀ where

variable [Facts]
-- ==== Proof.Spec.lean ====
/-
  The network both programs compute, as plain mathematics on the extended reals.

  One row of the gathered input is a vector of 32 numbers.  Four rectified dense layers of width 144
  follow — each sends a vector `h` to `j ↦ max (∑ k, h k · W k j + b j) 0` — and a last affine map reads
  one number off the fourth layer, `∑ k, h k · w k + c`.  `network` is that number for every row of a
  1000000 × 32 array, laid out as a 1000000 × 1 array.  Nothing here mentions a block, a grid or a
  program: the two programs are compared with this one function.  The zero of the rectifier is kept
  as the word both programs print for it; its value is never needed.
-/
import Idealize.ShloMosaic.PureOps.Ideal
import Idealize.ShloMosaic.Lib.ValueIdx

noncomputable section

open scoped BigOperators

namespace Cert.Mlp

open Idealize.ShloMosaic Idealize.ShloMosaic.ValueIdx

/-- A rectified dense layer from `K` inputs to 144 outputs, at output `j`. -/
def dense {K : Nat} (h : Fin K → EReal) (W : Fin K → Fin 144 → EReal) (b : Fin 144 → EReal) (j : Fin 144) : EReal :=
  max ((∑ k : Fin K, h k * W k j) + b j) (Ideal.ofBits .f32 0x00000000#32)

/-- The last affine map: 144 inputs to one number. -/
def readout (h : Fin 144 → EReal) (w : Fin 144 → EReal) (c : EReal) : EReal :=
  (∑ k : Fin 144, h k * w k) + c

/-- The whole network on one row. -/
def mlp (x : Fin 32 → EReal) (W0 : Fin 32 → Fin 144 → EReal) (b0 : Fin 144 → EReal)
    (W1 : Fin 144 → Fin 144 → EReal) (b1 : Fin 144 → EReal) (W2 : Fin 144 → Fin 144 → EReal) (b2 : Fin 144 → EReal)
    (W3 : Fin 144 → Fin 144 → EReal) (b3 : Fin 144 → EReal) (w4 : Fin 144 → EReal) (c4 : EReal) : EReal :=
  readout (dense (dense (dense (dense x W0 b0) W1 b1) W2 b2) W3 b3) w4 c4

/-- The network applied to every row of the gathered array `x`, with the weights and biases given as the arrays
    the programs take: entry `(e, 0)` of the result is the network on row `e` of `x`. -/
def network (x : (⟨2, ![1000000, 32]⟩ : Shape).Idx → EReal)
    (W0 : (⟨2, ![32, 144]⟩ : Shape).Idx → EReal) (b0 : (⟨1, ![144]⟩ : Shape).Idx → EReal)
    (W1 : (⟨2, ![144, 144]⟩ : Shape).Idx → EReal) (b1 : (⟨1, ![144]⟩ : Shape).Idx → EReal)
    (W2 : (⟨2, ![144, 144]⟩ : Shape).Idx → EReal) (b2 : (⟨1, ![144]⟩ : Shape).Idx → EReal)
    (W3 : (⟨2, ![144, 144]⟩ : Shape).Idx → EReal) (b3 : (⟨1, ![144]⟩ : Shape).Idx → EReal)
    (W4 : (⟨2, ![144, 1]⟩ : Shape).Idx → EReal) (b4 : (⟨1, ![1]⟩ : Shape).Idx → EReal) :
    (⟨2, ![1000000, 1]⟩ : Shape).Idx → EReal :=
  fun i => mlp (fun k => x (ix2 (⟨(i 0).val, idx2_lt0 i⟩ : Fin 1000000) k))
    (fun k j => W0 (ix2 k j)) (fun j => b0 (ix1 j))
    (fun k j => W1 (ix2 k j)) (fun j => b1 (ix1 j))
    (fun k j => W2 (ix2 k j)) (fun j => b2 (ix1 j))
    (fun k j => W3 (ix2 k j)) (fun j => b3 (ix1 j))
    (fun k => W4 (ix2 k (0 : Fin 1))) (b4 (ix1 (0 : Fin 1)))

/-- The network of equal rows, weights and biases is the same number. -/
theorem mlp_congr {x x' : Fin 32 → EReal} {W0 W0' : Fin 32 → Fin 144 → EReal} {b0 b0' : Fin 144 → EReal}
    {W1 W1' : Fin 144 → Fin 144 → EReal} {b1 b1' : Fin 144 → EReal} {W2 W2' : Fin 144 → Fin 144 → EReal} {b2 b2' : Fin 144 → EReal}
    {W3 W3' : Fin 144 → Fin 144 → EReal} {b3 b3' : Fin 144 → EReal} {w4 w4' : Fin 144 → EReal} {c4 c4' : EReal}
    (hx : x = x') (hW0 : W0 = W0') (hb0 : b0 = b0') (hW1 : W1 = W1') (hb1 : b1 = b1') (hW2 : W2 = W2') (hb2 : b2 = b2')
    (hW3 : W3 = W3') (hb3 : b3 = b3') (hw4 : w4 = w4') (hc4 : c4 = c4') :
    mlp x W0 b0 W1 b1 W2 b2 W3 b3 w4 c4 = mlp x' W0' b0' W1' b1' W2' b2' W3' b3' w4' c4' := by
  subst hx hW0 hb0 hW1 hb1 hW2 hb2 hW3 hb3 hw4 hc4
  rfl

/-- Read at row `e`: the network on that row. -/
theorem network_apply (x : (⟨2, ![1000000, 32]⟩ : Shape).Idx → EReal)
    (W0 : (⟨2, ![32, 144]⟩ : Shape).Idx → EReal) (b0 : (⟨1, ![144]⟩ : Shape).Idx → EReal)
    (W1 : (⟨2, ![144, 144]⟩ : Shape).Idx → EReal) (b1 : (⟨1, ![144]⟩ : Shape).Idx → EReal)
    (W2 : (⟨2, ![144, 144]⟩ : Shape).Idx → EReal) (b2 : (⟨1, ![144]⟩ : Shape).Idx → EReal)
    (W3 : (⟨2, ![144, 144]⟩ : Shape).Idx → EReal) (b3 : (⟨1, ![144]⟩ : Shape).Idx → EReal)
    (W4 : (⟨2, ![144, 1]⟩ : Shape).Idx → EReal) (b4 : (⟨1, ![1]⟩ : Shape).Idx → EReal) (e : Fin 1000000) (u : Fin 1) :
    network x W0 b0 W1 b1 W2 b2 W3 b3 W4 b4 (ix2 e u)
      = mlp (fun k => x (ix2 e k))
          (fun k j => W0 (ix2 k j)) (fun j => b0 (ix1 j))
          (fun k j => W1 (ix2 k j)) (fun j => b1 (ix1 j))
          (fun k j => W2 (ix2 k j)) (fun j => b2 (ix1 j))
          (fun k j => W3 (ix2 k j)) (fun j => b3 (ix1 j))
          (fun k => W4 (ix2 k (0 : Fin 1))) (b4 (ix1 (0 : Fin 1))) := rfl

end Cert.Mlp

end
-- ==== Proof.BodyValue.lean ====
/-
  What the kernel's body computes on one block, read one row at a time.

  A block is 8000 consecutive rows of the gathered array.  The body multiplies it by the first weight
  matrix, adds the first bias along every row and rectifies; does the same three more times with the
  144 × 144 matrices; and ends with the product by the 144 × 1 matrix plus the last bias.  At the exact
  values a product into a zero accumulator is the plain sum of products over the contracted
  coordinate, a rounding to a shorter format is the identity, and a bias stored as a one-row matrix and
  laid along every row contributes its entry of that column.  So row `r` of the body's result depends on
  row `r` of the block only, and is the network `Cert.Mlp.mlp` of that row.
-/
import proofs.«152973_j21646635172529_2_alg».proof.Proof.Gen.KernelIdeal.Skeleton
import proofs.«152973_j21646635172529_2_alg».proof.Proof.Spec
import Idealize.ShloMosaic.Lib.StackMember
import Idealize.ShloMosaic.Lib.ValueLayout

noncomputable section

open scoped BigOperators

namespace Cert.KernelIdeal.Body

open Cert.KernelIdeal Cert.KernelIdeal.Gen Idealize.ShloMosaic Idealize.ShloMosaic.ValueIdx Cert.Mlp

/-! ## The three products, at an entry -/

/-- Entry `(r, j)` of a block times the 32 × 144 matrix, into a zero accumulator: the sum over the 32 columns. -/
theorem product32 (y : FVec Ideal S8000x32 .bf16) (W : FVec Ideal S32x144 .bf16) (r : Fin 8000) (j : Fin 144) :
    matmul dot_S8000x32_S32x144_S8000x144_1_0_0_1_n_n none y W (constant S8000x144 .f32 0x00000000#32) (ix2 r j)
      = ∑ k : Fin 32, y (ix2 r k) * W (ix2 k j) := by
  rw [matmul_zero_eq_dotGeneral]
  exact StackMember.dotGeneral_plain_apply (m := 8000) (n := 144) (k := 32) none y W r j

/-- Entry `(r, j)` of a block times a 144 × 144 matrix. -/
theorem product144 (y : FVec Ideal S8000x144 .bf16) (W : FVec Ideal S144x144 .bf16) (r : Fin 8000) (j : Fin 144) :
    matmul dot_S8000x144_S144x144_S8000x144_1_0_0_1_n_n none y W (constant S8000x144 .f32 0x00000000#32) (ix2 r j)
      = ∑ k : Fin 144, y (ix2 r k) * W (ix2 k j) := by
  rw [matmul_zero_eq_dotGeneral]
  exact StackMember.dotGeneral_plain_apply (m := 8000) (n := 144) (k := 144) none y W r j

/-- Entry `(r, 0)` of a block times the 144 × 1 matrix. -/
theorem product1 (y : FVec Ideal S8000x144 .bf16) (W : FVec Ideal S144x1 .bf16) (r : Fin 8000) (j : Fin 1) :
    matmul dot_S8000x144_S144x1_S8000x1_1_0_0_1_n_n none y W (constant S8000x1 .f32 0x00000000#32) (ix2 r j)
      = ∑ k : Fin 144, y (ix2 r k) * W (ix2 k j) := by
  rw [matmul_zero_eq_dotGeneral]
  exact StackMember.dotGeneral_plain_apply (m := 8000) (n := 1) (k := 144) none y W r j

/-! ## The body's layers on a block -/

/-- The first layer on a block: product, bias along the rows, rectifier, rounding. -/
def firstLayer (x : FVec Ideal S8000x32 .bf16) (W : FVec Ideal S32x144 .bf16) (v : FVec Ideal S1x144 .f32) : FVec Ideal S8000x144 .bf16 :=
  truncf .bf16 (maximumf (addf (matmul dot_S8000x32_S32x144_S8000x144_1_0_0_1_n_n none x W (constant S8000x144 .f32 0x00000000#32))
    (broadcastTo S8000x144 v broadcasts_S1x144_S8000x144)) (broadcast S8000x144 (Scalar.ofBits .f32 0x00000000#32))) bitsLt_bf16_f32

/-- A middle layer on a block. -/
def middleLayer (y : FVec Ideal S8000x144 .bf16) (W : FVec Ideal S144x144 .bf16) (v : FVec Ideal S1x144 .f32) : FVec Ideal S8000x144 .bf16 :=
  truncf .bf16 (maximumf (addf (matmul dot_S8000x144_S144x144_S8000x144_1_0_0_1_n_n none y W (constant S8000x144 .f32 0x00000000#32))
    (broadcastTo S8000x144 v broadcasts_S1x144_S8000x144)) (broadcast S8000x144 (Scalar.ofBits .f32 0x00000000#32))) bitsLt_bf16_f32

/-- The last affine map on a block. -/
def lastMap (y : FVec Ideal S8000x144 .bf16) (W : FVec Ideal S144x1 .bf16) (v : FVec Ideal S1x1 .f32) : FVec Ideal S8000x1 .f32 :=
  addf (matmul dot_S8000x144_S144x1_S8000x1_1_0_0_1_n_n none y W (constant S8000x1 .f32 0x00000000#32))
    (broadcastTo S8000x1 v broadcasts_S1x1_S8000x1)

/-- Row `r` of the first layer's result is the rectified dense layer of row `r` of the block. -/
theorem firstLayer_apply (x : FVec Ideal S8000x32 .bf16) (W : FVec Ideal S32x144 .bf16) (v : FVec Ideal S1x144 .f32) (r : Fin 8000) (j : Fin 144) :
    firstLayer x W v (ix2 r j) = dense (fun k => x (ix2 r k)) (fun k j => W (ix2 k j)) (fun j => v (ix2 (0 : Fin 1) j)) j := by
  unfold firstLayer dense
  rw [truncf_apply, maximumf_apply, addf_apply, broadcast_apply, product32, broadcastTo_1b_ab_apply]
  rfl

/-- Row `r` of a middle layer's result is the rectified dense layer of row `r` of its operand. -/
theorem middleLayer_apply (y : FVec Ideal S8000x144 .bf16) (W : FVec Ideal S144x144 .bf16) (v : FVec Ideal S1x144 .f32) (r : Fin 8000) (j : Fin 144) :
    middleLayer y W v (ix2 r j) = dense (fun k => y (ix2 r k)) (fun k j => W (ix2 k j)) (fun j => v (ix2 (0 : Fin 1) j)) j := by
  unfold middleLayer dense
  rw [truncf_apply, maximumf_apply, addf_apply, broadcast_apply, product144, broadcastTo_1b_ab_apply]
  rfl

/-- Row `r` of the last map's result is the affine read-out of row `r` of its operand. -/
theorem lastMap_apply (y : FVec Ideal S8000x144 .bf16) (W : FVec Ideal S144x1 .bf16) (v : FVec Ideal S1x1 .f32) (r : Fin 8000) :
    lastMap y W v (ix2 r (0 : Fin 1)) = readout (fun k => y (ix2 r k)) (fun k => W (ix2 k (0 : Fin 1))) (v (ix2 (0 : Fin 1) (0 : Fin 1))) := by
  unfold lastMap readout
  rw [addf_apply, product1, broadcastTo_1b_ab_apply]

/-! ## The body is the five layers, and row by row the network -/

/-- The body's stored value, as printed, is the five layers in turn (a cast to the same shape is the identity). -/
theorem payload_eq (v0 : Vec Ideal S8000x32 .bf16) (v2 : Vec Ideal S32x144 .bf16) (v5 : Vec Ideal S1x144 .f32)
    (v12 : Vec Ideal S144x144 .bf16) (v15 : Vec Ideal S1x144 .f32) (v22 : Vec Ideal S144x144 .bf16) (v25 : Vec Ideal S1x144 .f32)
    (v32 : Vec Ideal S144x144 .bf16) (v35 : Vec Ideal S1x144 .f32) (v42 : Vec Ideal S144x1 .bf16) (v45 : Vec Ideal S1x1 .f32) :
    k0_pay1 (F := Ideal) (k0_pay2 (F := Ideal) v0 v2 v5 v12 v15 v22 v25 v32) v35 v42 v45
      = lastMap (middleLayer (middleLayer (middleLayer (firstLayer v0 v2 v5) v12 v15) v22 v25) v32 v35) v42 v45 := by
  unfold k0_pay1 k0_pay2 lastMap middleLayer firstLayer
  simp only [shapeCast_self]

/-- Row `r` of the body's stored value is the network on row `r` of the block. -/
theorem payload_apply (v0 : Vec Ideal S8000x32 .bf16) (v2 : Vec Ideal S32x144 .bf16) (v5 : Vec Ideal S1x144 .f32)
    (v12 : Vec Ideal S144x144 .bf16) (v15 : Vec Ideal S1x144 .f32) (v22 : Vec Ideal S144x144 .bf16) (v25 : Vec Ideal S1x144 .f32)
    (v32 : Vec Ideal S144x144 .bf16) (v35 : Vec Ideal S1x144 .f32) (v42 : Vec Ideal S144x1 .bf16) (v45 : Vec Ideal S1x1 .f32) (r : Fin 8000) :
    k0_pay1 (F := Ideal) (k0_pay2 (F := Ideal) v0 v2 v5 v12 v15 v22 v25 v32) v35 v42 v45 (ix2 r (0 : Fin 1))
      = mlp (fun k => v0 (ix2 r k)) (fun k j => v2 (ix2 k j)) (fun j => v5 (ix2 (0 : Fin 1) j))
          (fun k j => v12 (ix2 k j)) (fun j => v15 (ix2 (0 : Fin 1) j))
          (fun k j => v22 (ix2 k j)) (fun j => v25 (ix2 (0 : Fin 1) j))
          (fun k j => v32 (ix2 k j)) (fun j => v35 (ix2 (0 : Fin 1) j))
          (fun k => v42 (ix2 k (0 : Fin 1))) (v45 (ix2 (0 : Fin 1) (0 : Fin 1))) := by
  rw [payload_eq]
  have h1 : (fun k => firstLayer v0 v2 v5 (ix2 r k)) = dense (fun k => v0 (ix2 r k)) (fun k j => v2 (ix2 k j)) (fun j => v5 (ix2 (0 : Fin 1) j)) :=
    funext fun k => firstLayer_apply v0 v2 v5 r k
  have h2 : (fun k => middleLayer (firstLayer v0 v2 v5) v12 v15 (ix2 r k)) = dense (dense (fun k => v0 (ix2 r k)) (fun k j => v2 (ix2 k j)) (fun j => v5 (ix2 (0 : Fin 1) j))) (fun k j => v12 (ix2 k j)) (fun j => v15 (ix2 (0 : Fin 1) j)) :=
    funext fun k => (middleLayer_apply _ v12 v15 r k).trans (by rw [h1])
  have h3 : (fun k => middleLayer (middleLayer (firstLayer v0 v2 v5) v12 v15) v22 v25 (ix2 r k)) = dense (dense (dense (fun k => v0 (ix2 r k)) (fun k j => v2 (ix2 k j)) (fun j => v5 (ix2 (0 : Fin 1) j))) (fun k j => v12 (ix2 k j)) (fun j => v15 (ix2 (0 : Fin 1) j))) (fun k j => v22 (ix2 k j)) (fun j => v25 (ix2 (0 : Fin 1) j)) :=
    funext fun k => (middleLayer_apply _ v22 v25 r k).trans (by rw [h2])
  have h4 : (fun k => middleLayer (middleLayer (middleLayer (firstLayer v0 v2 v5) v12 v15) v22 v25) v32 v35 (ix2 r k)) = dense (dense (dense (dense (fun k => v0 (ix2 r k)) (fun k j => v2 (ix2 k j)) (fun j => v5 (ix2 (0 : Fin 1) j))) (fun k j => v12 (ix2 k j)) (fun j => v15 (ix2 (0 : Fin 1) j))) (fun k j => v22 (ix2 k j)) (fun j => v25 (ix2 (0 : Fin 1) j))) (fun k j => v32 (ix2 k j)) (fun j => v35 (ix2 (0 : Fin 1) j)) :=
    funext fun k => (middleLayer_apply _ v32 v35 r k).trans (by rw [h3])
  refine (lastMap_apply _ v42 v45 r).trans ?_
  rw [h4]
  rfl

end Cert.KernelIdeal.Body

end
-- ==== Proof.HostPrefix.lean ====
/-
  What the region finds in its operand arrays.

  Before the one kernel launch the program gathers: it turns every label `l` into a start index (labels
  below zero are shifted up by the table's 100000 rows), pairs it with the column 0, and reads the score
  table — rounded to the shorter float format, which at the exact values changes nothing — at those
  positions.  That 1000000 × 32 array is the kernel's first operand.  The five weight matrices are handed
  over rounded (again the identity here), and each bias vector re-laid as a one-row matrix, so that entry
  `(0, j)` of the matrix is entry `j` of the vector.
-/
import proofs.«152973_j21646635172529_2_alg».proof.Proof.Gen.KernelIdeal.Frame
import Idealize.ShloMosaic.Lib.StableHlo.Run
import Idealize.ShloMosaic.Lib.ValueLayout

noncomputable section

namespace Cert.KernelIdeal.Host

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The start indices built from the labels: `(l, 0)`, or `(l + 100000, 0)` for a label below zero. -/
def startIdx (l : IVec S1000000x32 32) : IVec S1000000x32x2 32 :=
  concatenate S1000000x32x2 2
    [⟨S1000000x32x1, broadcastInDim S1000000x32x1 ![0, 1] bcast_S1000000x32_S1000000x32x1_0_1
        (select (cmpi .slt l (broadcastInDim S1000000x32 ![] bcast_S_S1000000x32 (constantI S_ 32 0#32)))
          (addi l (broadcastInDim S1000000x32 ![] bcast_S_S1000000x32 (constantI S_ 32 100000#32))) l)⟩,
     ⟨S1000000x32x1, broadcastInDim S1000000x32x1 ![0, 1] bcast_S1000000x32_S1000000x32x1_0_1
        (id (broadcastInDim S1000000x32 ![] bcast_S_S1000000x32 (constantI S_ 32 0#32)))⟩]
    concatenates_S1000000x32x1_S1000000x32x1_S1000000x32x2_d2

/-- The gathered array: the score table read at the start indices. -/
def gathered (s : FVec Ideal S100000x1 .f32) (l : IVec S1000000x32 32) : FVec Ideal S1000000x32 .bf16 :=
  Host.gather gather_S100000x1_S1000000x32x2_S1000000x32_n_01_n_n_01_2_11 (truncf .bf16 s bitsLt_bf16_f32) (startIdx l)

/-- The kernel's first operand is the gathered array. -/
theorem V_gathered (c : Dev nD) :
    (V m c main_v11 : FVec Ideal S1000000x32 .bf16) = gathered (m ((c : Thread nD τ).loc main_arg0)) (m ((c : Thread nD τ).loc main_arg1)) := by
  dsimp only [Gen.V, Gen.hostOps0]
  after_results
  rfl

/-- The weight operands are the weight arguments (a rounding is the identity at the exact values). -/
theorem V_w0 (c : Dev nD) : (V m c main_v12 : FVec Ideal S32x144 .bf16) = (m ((c : Thread nD τ).loc main_arg2) : FVec Ideal S32x144 .f32) := by
  dsimp only [Gen.V, Gen.hostOps0]
  after_results
  rfl
theorem V_w1 (c : Dev nD) : (V m c main_v13 : FVec Ideal S144x144 .bf16) = (m ((c : Thread nD τ).loc main_arg4) : FVec Ideal S144x144 .f32) := by
  dsimp only [Gen.V, Gen.hostOps0]
  after_results
  rfl
theorem V_w2 (c : Dev nD) : (V m c main_v14 : FVec Ideal S144x144 .bf16) = (m ((c : Thread nD τ).loc main_arg6) : FVec Ideal S144x144 .f32) := by
  dsimp only [Gen.V, Gen.hostOps0]
  after_results
  rfl
theorem V_w3 (c : Dev nD) : (V m c main_v15 : FVec Ideal S144x144 .bf16) = (m ((c : Thread nD τ).loc main_arg8) : FVec Ideal S144x144 .f32) := by
  dsimp only [Gen.V, Gen.hostOps0]
  after_results
  rfl
theorem V_w4 (c : Dev nD) : (V m c main_v16 : FVec Ideal S144x1 .bf16) = (m ((c : Thread nD τ).loc main_arg10) : FVec Ideal S144x1 .f32) := by
  dsimp only [Gen.V, Gen.hostOps0]
  after_results
  rfl

/-- Entry `(0, j)` of a bias operand is entry `j` of the bias argument. -/
theorem V_b0 (c : Dev nD) (j : Fin 144) : (V m c main_v17 : FVec Ideal S1x144 .f32) (ix2 (0 : Fin 1) j) = (m ((c : Thread nD τ).loc main_arg3) : FVec Ideal S144 .f32) (ix1 j) := by
  have e : (V m c main_v17 : FVec Ideal S1x144 .f32) = shapeCast S1x144 (m ((c : Thread nD τ).loc main_arg3) : FVec Ideal S144 .f32) shapeCasts_S144_S1x144 := by
    dsimp only [Gen.V, Gen.hostOps0]
    after_results
    rfl
  rw [e]
  exact shapeCast_a_1a_apply _ _ 0 j
theorem V_b1 (c : Dev nD) (j : Fin 144) : (V m c main_v18 : FVec Ideal S1x144 .f32) (ix2 (0 : Fin 1) j) = (m ((c : Thread nD τ).loc main_arg5) : FVec Ideal S144 .f32) (ix1 j) := by
  have e : (V m c main_v18 : FVec Ideal S1x144 .f32) = shapeCast S1x144 (m ((c : Thread nD τ).loc main_arg5) : FVec Ideal S144 .f32) shapeCasts_S144_S1x144 := by
    dsimp only [Gen.V, Gen.hostOps0]
    after_results
    rfl
  rw [e]
  exact shapeCast_a_1a_apply _ _ 0 j
theorem V_b2 (c : Dev nD) (j : Fin 144) : (V m c main_v19 : FVec Ideal S1x144 .f32) (ix2 (0 : Fin 1) j) = (m ((c : Thread nD τ).loc main_arg7) : FVec Ideal S144 .f32) (ix1 j) := by
  have e : (V m c main_v19 : FVec Ideal S1x144 .f32) = shapeCast S1x144 (m ((c : Thread nD τ).loc main_arg7) : FVec Ideal S144 .f32) shapeCasts_S144_S1x144 := by
    dsimp only [Gen.V, Gen.hostOps0]
    after_results
    rfl
  rw [e]
  exact shapeCast_a_1a_apply _ _ 0 j
theorem V_b3 (c : Dev nD) (j : Fin 144) : (V m c main_v20 : FVec Ideal S1x144 .f32) (ix2 (0 : Fin 1) j) = (m ((c : Thread nD τ).loc main_arg9) : FVec Ideal S144 .f32) (ix1 j) := by
  have e : (V m c main_v20 : FVec Ideal S1x144 .f32) = shapeCast S1x144 (m ((c : Thread nD τ).loc main_arg9) : FVec Ideal S144 .f32) shapeCasts_S144_S1x144 := by
    dsimp only [Gen.V, Gen.hostOps0]
    after_results
    rfl
  rw [e]
  exact shapeCast_a_1a_apply _ _ 0 j
theorem V_b4 (c : Dev nD) : (V m c main_v21 : FVec Ideal S1x1 .f32) (ix2 (0 : Fin 1) (0 : Fin 1)) = (m ((c : Thread nD τ).loc main_arg11) : FVec Ideal S1 .f32) (ix1 (0 : Fin 1)) := by
  have e : (V m c main_v21 : FVec Ideal S1x1 .f32) = shapeCast S1x1 (m ((c : Thread nD τ).loc main_arg11) : FVec Ideal S1 .f32) shapeCasts_S1_S1x1 := by
    dsimp only [Gen.V, Gen.hostOps0]
    after_results
    rfl
  rw [e]
  exact shapeCast_a_1a_apply _ _ 0 0

end Cert.KernelIdeal.Host

end
-- ==== Proof.KernelValue.lean ====
/-
  The kernel's result array, assembled from its blocks.

  The launch visits 125 grid points.  At point `t` the first operand's block is rows `8000·t … 8000·t + 7999`
  of the gathered array, every weight and bias operand's block is the whole (small) array, and the output's
  block is rows `8000·t … 8000·t + 7999` of the 1000000 × 1 result.  Row `r` of what the body stores is the
  network on row `r` of its block (BodyValue), that is, on row `8000·t + r` of the gathered array; so each
  point writes back exactly its block of ONE array, the network on every row of the gathered array.  The
  125 output blocks tile the result (row `e` lies in the block of point `e / 8000`), hence after the run the
  result array is that array everywhere.
-/
import proofs.«152973_j21646635172529_2_alg».proof.Proof.Gen.KernelIdeal.Value
import proofs.«152973_j21646635172529_2_alg».proof.Proof.BodyValue
import proofs.«152973_j21646635172529_2_alg».proof.Proof.HostPrefix
import proofs.«152973_j21646635172529_2_alg».proof.Proof.Spec
import Idealize.ShloMosaic.Lib.Pipeline.Value

noncomputable section

open scoped BigOperators

namespace Cert.KernelIdeal.Whole

open Cert.KernelIdeal Cert.KernelIdeal.Gen Idealize.ShloMosaic Idealize.ShloMosaic.TcCoe Idealize.SL.Sem Idealize.ShloMosaic.ValueIdx Cert.Mlp
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- The block indices of every operand at every grid point, decided over the 125 points: the first operand and the
    output move down one block of rows per point; every other operand stays at its one block. -/
theorem block_index : ∀ t : Fin cfg0.N,
    win0_0.index t (0 : Fin 2) = t.val ∧ win0_0.index t (1 : Fin 2) = 0
    ∧ win0_11.index t (0 : Fin 2) = t.val ∧ win0_11.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- Row `r` of the block of point `t`, as a row of the whole array. -/
def row (t : Fin cfg0.N) (r : Fin 8000) : Fin 1000000 :=
  ⟨8000 * t.val + r.val, by have hN : cfg0.N = 125 := N_0; have := t.isLt; have := r.isLt; omega⟩

/-- THE KERNEL'S RESULT: the network on every row of the gathered array, with the weight and bias arguments. -/
def kernelResult (c : Dev nD) : S1000000x1.Idx → EReal :=
  network (Host.gathered (m ((c : Thread nD τ).loc main_arg0)) (m ((c : Thread nD τ).loc main_arg1)))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11))

/-! ## Each operand's block, read in the whole array -/

/-- Entry `(r, k)` of the first operand's block at point `t` is entry `(8000·t + r, k)` of the gathered array. -/
theorem rows_block (c : Dev nD) (t : Fin cfg0.N) (r : Fin 8000) (k : Fin 32) :
    (iblk m c 0 t : Vec Ideal S8000x32 .bf16) (ix2 r k) = (V m c main_v11 : FVec Ideal S1000000x32 .bf16) (ix2 (row t r) k) := by
  obtain ⟨h0, h1, -⟩ := block_index t
  unfold iblk
  rw [View.read_apply]
  show (V m c main_v11 : FVec Ideal S1000000x32 .bf16) _ = (V m c main_v11 : FVec Ideal S1000000x32 .bf16) _
  congr 1
  funext a
  apply Fin.ext
  match a with
  | ⟨0, _⟩ => show win0_0.index t (0 : Fin 2) * 8000 + 1 * r.val = 8000 * t.val + r.val; rw [h0]; omega
  | ⟨1, _⟩ => show win0_0.index t (1 : Fin 2) * 32 + 1 * k.val = k.val; rw [h1]; omega

/-- The block of operand 1 at any point is its whole array. -/
theorem whole_block1 (c : Dev nD) (t : Fin cfg0.N) (y : S32x144.Idx) :
    (iblk m c 1 t : Vec Ideal S32x144 .bf16) y = (V m c main_v12 : FVec Ideal S32x144 .bf16) y := by
  have h := block_index t
  have h0 : win0_1.index t (0 : Fin 2) = 0 := by simp only [h]
  have h1 : win0_1.index t (1 : Fin 2) = 0 := by simp only [h]
  unfold iblk
  rw [View.read_apply]
  show (V m c main_v12 : FVec Ideal S32x144 .bf16) _ = (V m c main_v12 : FVec Ideal S32x144 .bf16) _
  congr 1
  funext a
  apply Fin.ext
  match a with
  | ⟨0, _⟩ => show win0_1.index t (0 : Fin 2) * 32 + 1 * (y 0).val = (y 0).val; rw [h0]; omega
  | ⟨1, _⟩ => show win0_1.index t (1 : Fin 2) * 144 + 1 * (y 1).val = (y 1).val; rw [h1]; omega

/-- The block of operand 2 at any point is its whole array. -/
theorem whole_block2 (c : Dev nD) (t : Fin cfg0.N) (y : S1x144.Idx) :
    (iblk m c 2 t : Vec Ideal S1x144 .f32) y = (V m c main_v17 : FVec Ideal S1x144 .f32) y := by
  have h := block_index t
  have h0 : win0_2.index t (0 : Fin 2) = 0 := by simp only [h]
  have h1 : win0_2.index t (1 : Fin 2) = 0 := by simp only [h]
  unfold iblk
  rw [View.read_apply]
  show (V m c main_v17 : FVec Ideal S1x144 .f32) _ = (V m c main_v17 : FVec Ideal S1x144 .f32) _
  congr 1
  funext a
  apply Fin.ext
  match a with
  | ⟨0, _⟩ => show win0_2.index t (0 : Fin 2) * 1 + 1 * (y 0).val = (y 0).val; rw [h0]; omega
  | ⟨1, _⟩ => show win0_2.index t (1 : Fin 2) * 144 + 1 * (y 1).val = (y 1).val; rw [h1]; omega

/-- The block of operand 3 at any point is its whole array. -/
theorem whole_block3 (c : Dev nD) (t : Fin cfg0.N) (y : S144x144.Idx) :
    (iblk m c 3 t : Vec Ideal S144x144 .bf16) y = (V m c main_v13 : FVec Ideal S144x144 .bf16) y := by
  have h := block_index t
  have h0 : win0_3.index t (0 : Fin 2) = 0 := by simp only [h]
  have h1 : win0_3.index t (1 : Fin 2) = 0 := by simp only [h]
  unfold iblk
  rw [View.read_apply]
  show (V m c main_v13 : FVec Ideal S144x144 .bf16) _ = (V m c main_v13 : FVec Ideal S144x144 .bf16) _
  congr 1
  funext a
  apply Fin.ext
  match a with
  | ⟨0, _⟩ => show win0_3.index t (0 : Fin 2) * 144 + 1 * (y 0).val = (y 0).val; rw [h0]; omega
  | ⟨1, _⟩ => show win0_3.index t (1 : Fin 2) * 144 + 1 * (y 1).val = (y 1).val; rw [h1]; omega

/-- The block of operand 4 at any point is its whole array. -/
theorem whole_block4 (c : Dev nD) (t : Fin cfg0.N) (y : S1x144.Idx) :
    (iblk m c 4 t : Vec Ideal S1x144 .f32) y = (V m c main_v18 : FVec Ideal S1x144 .f32) y := by
  have h := block_index t
  have h0 : win0_4.index t (0 : Fin 2) = 0 := by simp only [h]
  have h1 : win0_4.index t (1 : Fin 2) = 0 := by simp only [h]
  unfold iblk
  rw [View.read_apply]
  show (V m c main_v18 : FVec Ideal S1x144 .f32) _ = (V m c main_v18 : FVec Ideal S1x144 .f32) _
  congr 1
  funext a
  apply Fin.ext
  match a with
  | ⟨0, _⟩ => show win0_4.index t (0 : Fin 2) * 1 + 1 * (y 0).val = (y 0).val; rw [h0]; omega
  | ⟨1, _⟩ => show win0_4.index t (1 : Fin 2) * 144 + 1 * (y 1).val = (y 1).val; rw [h1]; omega

/-- The block of operand 5 at any point is its whole array. -/
theorem whole_block5 (c : Dev nD) (t : Fin cfg0.N) (y : S144x144.Idx) :
    (iblk m c 5 t : Vec Ideal S144x144 .bf16) y = (V m c main_v14 : FVec Ideal S144x144 .bf16) y := by
  have h := block_index t
  have h0 : win0_5.index t (0 : Fin 2) = 0 := by simp only [h]
  have h1 : win0_5.index t (1 : Fin 2) = 0 := by simp only [h]
  unfold iblk
  rw [View.read_apply]
  show (V m c main_v14 : FVec Ideal S144x144 .bf16) _ = (V m c main_v14 : FVec Ideal S144x144 .bf16) _
  congr 1
  funext a
  apply Fin.ext
  match a with
  | ⟨0, _⟩ => show win0_5.index t (0 : Fin 2) * 144 + 1 * (y 0).val = (y 0).val; rw [h0]; omega
  | ⟨1, _⟩ => show win0_5.index t (1 : Fin 2) * 144 + 1 * (y 1).val = (y 1).val; rw [h1]; omega

/-- The block of operand 6 at any point is its whole array. -/
theorem whole_block6 (c : Dev nD) (t : Fin cfg0.N) (y : S1x144.Idx) :
    (iblk m c 6 t : Vec Ideal S1x144 .f32) y = (V m c main_v19 : FVec Ideal S1x144 .f32) y := by
  have h := block_index t
  have h0 : win0_6.index t (0 : Fin 2) = 0 := by simp only [h]
  have h1 : win0_6.index t (1 : Fin 2) = 0 := by simp only [h]
  unfold iblk
  rw [View.read_apply]
  show (V m c main_v19 : FVec Ideal S1x144 .f32) _ = (V m c main_v19 : FVec Ideal S1x144 .f32) _
  congr 1
  funext a
  apply Fin.ext
  match a with
  | ⟨0, _⟩ => show win0_6.index t (0 : Fin 2) * 1 + 1 * (y 0).val = (y 0).val; rw [h0]; omega
  | ⟨1, _⟩ => show win0_6.index t (1 : Fin 2) * 144 + 1 * (y 1).val = (y 1).val; rw [h1]; omega

/-- The block of operand 7 at any point is its whole array. -/
theorem whole_block7 (c : Dev nD) (t : Fin cfg0.N) (y : S144x144.Idx) :
    (iblk m c 7 t : Vec Ideal S144x144 .bf16) y = (V m c main_v15 : FVec Ideal S144x144 .bf16) y := by
  have h := block_index t
  have h0 : win0_7.index t (0 : Fin 2) = 0 := by simp only [h]
  have h1 : win0_7.index t (1 : Fin 2) = 0 := by simp only [h]
  unfold iblk
  rw [View.read_apply]
  show (V m c main_v15 : FVec Ideal S144x144 .bf16) _ = (V m c main_v15 : FVec Ideal S144x144 .bf16) _
  congr 1
  funext a
  apply Fin.ext
  match a with
  | ⟨0, _⟩ => show win0_7.index t (0 : Fin 2) * 144 + 1 * (y 0).val = (y 0).val; rw [h0]; omega
  | ⟨1, _⟩ => show win0_7.index t (1 : Fin 2) * 144 + 1 * (y 1).val = (y 1).val; rw [h1]; omega

/-- The block of operand 8 at any point is its whole array. -/
theorem whole_block8 (c : Dev nD) (t : Fin cfg0.N) (y : S1x144.Idx) :
    (iblk m c 8 t : Vec Ideal S1x144 .f32) y = (V m c main_v20 : FVec Ideal S1x144 .f32) y := by
  have h := block_index t
  have h0 : win0_8.index t (0 : Fin 2) = 0 := by simp only [h]
  have h1 : win0_8.index t (1 : Fin 2) = 0 := by simp only [h]
  unfold iblk
  rw [View.read_apply]
  show (V m c main_v20 : FVec Ideal S1x144 .f32) _ = (V m c main_v20 : FVec Ideal S1x144 .f32) _
  congr 1
  funext a
  apply Fin.ext
  match a with
  | ⟨0, _⟩ => show win0_8.index t (0 : Fin 2) * 1 + 1 * (y 0).val = (y 0).val; rw [h0]; omega
  | ⟨1, _⟩ => show win0_8.index t (1 : Fin 2) * 144 + 1 * (y 1).val = (y 1).val; rw [h1]; omega

/-- The block of operand 9 at any point is its whole array. -/
theorem whole_block9 (c : Dev nD) (t : Fin cfg0.N) (y : S144x1.Idx) :
    (iblk m c 9 t : Vec Ideal S144x1 .bf16) y = (V m c main_v16 : FVec Ideal S144x1 .bf16) y := by
  have h := block_index t
  have h0 : win0_9.index t (0 : Fin 2) = 0 := by simp only [h]
  have h1 : win0_9.index t (1 : Fin 2) = 0 := by simp only [h]
  unfold iblk
  rw [View.read_apply]
  show (V m c main_v16 : FVec Ideal S144x1 .bf16) _ = (V m c main_v16 : FVec Ideal S144x1 .bf16) _
  congr 1
  funext a
  apply Fin.ext
  match a with
  | ⟨0, _⟩ => show win0_9.index t (0 : Fin 2) * 144 + 1 * (y 0).val = (y 0).val; rw [h0]; omega
  | ⟨1, _⟩ => show win0_9.index t (1 : Fin 2) * 1 + 1 * (y 1).val = (y 1).val; rw [h1]; omega

/-- The block of operand 10 at any point is its whole array. -/
theorem whole_block10 (c : Dev nD) (t : Fin cfg0.N) (y : S1x1.Idx) :
    (iblk m c 10 t : Vec Ideal S1x1 .f32) y = (V m c main_v21 : FVec Ideal S1x1 .f32) y := by
  have h := block_index t
  have h0 : win0_10.index t (0 : Fin 2) = 0 := by simp only [h]
  have h1 : win0_10.index t (1 : Fin 2) = 0 := by simp only [h]
  unfold iblk
  rw [View.read_apply]
  show (V m c main_v21 : FVec Ideal S1x1 .f32) _ = (V m c main_v21 : FVec Ideal S1x1 .f32) _
  congr 1
  funext a
  apply Fin.ext
  match a with
  | ⟨0, _⟩ => show win0_10.index t (0 : Fin 2) * 1 + 1 * (y 0).val = (y 0).val; rw [h0]; omega
  | ⟨1, _⟩ => show win0_10.index t (1 : Fin 2) * 1 + 1 * (y 1).val = (y 1).val; rw [h1]; omega

/-- Entry `(r, 0)` of the output's block at point `t` sits at `(8000·t + r, 0)` of the result array. -/
theorem out_row (t : Fin cfg0.N) (r : Fin 8000) :
    ((cfg0.win 11).blk t).view.emb (ix2 r (0 : Fin 1)) = (ix2 (row t r) (0 : Fin 1) : S1000000x1.Idx) := by
  have h := block_index t
  have h0 : win0_11.index t (0 : Fin 2) = t.val := by simp only [h]
  have h1 : win0_11.index t (1 : Fin 2) = 0 := by simp only [h]
  funext a
  apply Fin.ext
  match a with
  | ⟨0, _⟩ => show win0_11.index t (0 : Fin 2) * 8000 + 1 * r.val = 8000 * t.val + r.val; rw [h0]; omega
  | ⟨1, _⟩ => show win0_11.index t (1 : Fin 2) * 1 + 1 * 0 = 0; rw [h1]

/-! ## What a point writes back, the cover, the array -/

/-- WHAT POINT `t` WRITES BACK is block `t` of `kernelResult`. -/
theorem flushed_eq (c : Dev nD) (t : Fin cfg0.N) :
    (dats m 0 c).flushed 11 t = ((cfg0.win 11).blk t).view.read (Elt Ideal) (kernelResult m c) := by
  rw [Value.flushed11]
  unfold out0_11
  rw [View.canon_unit_zero zeros]
  simp only [View.ld_unit_zero (S := S8000x32) zeros, View.ld_unit_zero (S := S32x144) zeros, View.ld_unit_zero (S := S1x144) zeros,
    View.ld_unit_zero (S := S144x144) zeros, View.ld_unit_zero (S := S144x1) zeros, View.ld_unit_zero (S := S1x1) zeros]
  funext y
  obtain ⟨r, u, rfl⟩ : ∃ (r : Fin 8000) (u : Fin 1), y = ix2 r u := ⟨y 0, y 1, eq_ix2 y⟩
  obtain rfl : u = 0 := Subsingleton.elim _ _
  show k0_pay1 (F := Ideal) (k0_pay2 (F := Ideal) (iblk m c 0 t) (iblk m c 1 t) (iblk m c 2 t) (iblk m c 3 t) (iblk m c 4 t) (iblk m c 5 t) (iblk m c 6 t) (iblk m c 7 t)) (iblk m c 8 t) (iblk m c 9 t) (iblk m c 10 t) (ix2 r (0 : Fin 1))
    = kernelResult m c (((cfg0.win 11).blk t).view.emb (ix2 r (0 : Fin 1)))
  refine (Body.payload_apply (iblk m c 0 t) (iblk m c 1 t) (iblk m c 2 t) (iblk m c 3 t) (iblk m c 4 t) (iblk m c 5 t) (iblk m c 6 t) (iblk m c 7 t) (iblk m c 8 t) (iblk m c 9 t) (iblk m c 10 t) r).trans ?_
  refine Eq.trans ?_ (congrArg (kernelResult m c) (out_row t r)).symm
  unfold kernelResult
  rw [network_apply]
  refine mlp_congr
    (funext fun k => (rows_block m c t r k).trans (congrFun (Host.V_gathered m c) _))
    (funext fun k => funext fun j => (whole_block1 m c t (ix2 k j)).trans (congrFun (Host.V_w0 m c) _))
    (funext fun j => (whole_block2 m c t (ix2 (0 : Fin 1) j)).trans (Host.V_b0 m c j))
    (funext fun k => funext fun j => (whole_block3 m c t (ix2 k j)).trans (congrFun (Host.V_w1 m c) _))
    (funext fun j => (whole_block4 m c t (ix2 (0 : Fin 1) j)).trans (Host.V_b1 m c j))
    (funext fun k => funext fun j => (whole_block5 m c t (ix2 k j)).trans (congrFun (Host.V_w2 m c) _))
    (funext fun j => (whole_block6 m c t (ix2 (0 : Fin 1) j)).trans (Host.V_b2 m c j))
    (funext fun k => funext fun j => (whole_block7 m c t (ix2 k j)).trans (congrFun (Host.V_w3 m c) _))
    (funext fun j => (whole_block8 m c t (ix2 (0 : Fin 1) j)).trans (Host.V_b3 m c j))
    (funext fun k => (whole_block9 m c t (ix2 k (0 : Fin 1))).trans (congrFun (Host.V_w4 m c) _))
    ((whole_block10 m c t (ix2 (0 : Fin 1) (0 : Fin 1))).trans (Host.V_b4 m c))

/-- An index of the result array is in point `t`'s block iff each coordinate is in the block's range on its axis. -/
theorem mem_block (t : Fin cfg0.N) (i : S1000000x1.Idx) :
    i ∈ ((cfg0.win 11).blk t).view.set ↔ ∀ a : Fin 2, win0_11.index t a * S8000x1.size a ≤ (i a).val ∧ (i a).val < win0_11.index t a * S8000x1.size a + S8000x1.size a := by
  show i ∈ ((View.whole main_v22).slice (win0_11.rect t)).set ↔ _
  rw [View.set_slice_whole, Rect.mem_set_unit]
  exact Iff.rfl

/-- THE COVER: row `e` of the result lies in the block of point `e / 8000`, which is written back. -/
theorem covered (i : S1000000x1.Idx) :
    ∃ t : Fin cfg0.N, (cfg0.win 11).flush t = true ∧ i ∈ ((cfg0.win 11).blk t).view.set := by
  have hi0 : (i 0).val < 1000000 := (i 0).isLt
  have hi1 : (i 1).val < 1 := (i 1).isLt
  have hN : cfg0.N = 125 := N_0
  obtain ⟨t, ht⟩ : ∃ t : Fin cfg0.N, t.val = (i 0).val / 8000 := ⟨⟨(i 0).val / 8000, by rw [hN]; omega⟩, rfl⟩
  have h := block_index t
  have h0 : win0_11.index t (0 : Fin 2) = t.val := by simp only [h]
  have h1 : win0_11.index t (1 : Fin 2) = 0 := by simp only [h]
  refine ⟨t, flush0_11 t, ?_⟩
  rw [mem_block]
  intro a
  match a with
  | ⟨0, _⟩ =>
    show win0_11.index t (0 : Fin 2) * 8000 ≤ (i 0).val ∧ (i 0).val < win0_11.index t (0 : Fin 2) * 8000 + 8000
    rw [h0, ht]; omega
  | ⟨1, _⟩ =>
    show win0_11.index t (1 : Fin 2) * 1 ≤ (i 1).val ∧ (i 1).val < win0_11.index t (1 : Fin 2) * 1 + 1
    rw [h1]; omega

/-- THE ARRAY after the run is `kernelResult`. -/
theorem final (c : Dev nD) : (dats m 0 c).arrAt 11 cfg0.N = kernelResult m c :=
  (dats m 0 c).arrAt_eq_of_cover 11 (kernelResult m c) (fun t _ => flushed_eq m c t) covered

/-- THE RUN, READ: every weakly fair execution ends with the result array at `kernelResult` and the arguments unchanged. -/
theorem run : θ_run defs (onTc (τ := τ) (main (F := Ideal))) ⟨m, fun _ => 0, ρ⟩ fun r => ∀ c : Dev nD,
      r.2.mem ((c : Thread nD τ).loc main_v22) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Cert.KernelIdeal.Value.run_blocks m ρ)

end Cert.KernelIdeal.Whole

end
-- ==== Proof.RefValue.lean ====
/-
  What the reference computes, read one row at a time.

  The reference gathers a 1000000 × 32 array and pushes it whole through the same five layers: a product
  with a weight matrix, the bias laid along every row, the rectifier (four times), and a last product plus
  bias.  Read at an entry, a whole-array product is the sum over the contracted coordinate of row `e` of
  its left operand against a column of its right operand, the twice-broadcast bias is its entry of that
  column, and the rectifier's broadcast zero is the zero.  So entry `(e, j)` of each rectified layer is the
  dense layer `Cert.Mlp.dense` of row `e` of the layer before, and the result at `(e, 0)` is the network on
  row `e` of the gathered array.
-/
import proofs.«152973_j21646635172529_2_alg».proof.Proof.Gen.ReferenceIdeal.Read
import proofs.«152973_j21646635172529_2_alg».proof.Proof.Spec

noncomputable section

open scoped BigOperators

namespace Cert.ReferenceIdeal.RefValue

open Cert.ReferenceIdeal Cert.ReferenceIdeal.Read Idealize.ShloMosaic Idealize.ShloMosaic.ValueIdx Cert.Mlp

/-- Entry `(e, j)` of rectified layer 1: the dense layer of row `e` of the gathered array. -/
theorem layer1_apply (x0 : (⟨S100000x1, .f32⟩ : BufTy).Contents (Elt Ideal)) (x1 : (⟨S1000000x32, .i32⟩ : BufTy).Contents (Elt Ideal)) (x2 : (⟨S32x144, .f32⟩ : BufTy).Contents (Elt Ideal)) (x3 : (⟨S144, .f32⟩ : BufTy).Contents (Elt Ideal)) (e : Fin 1000000) (j : Fin 144) :
    val_main_v15 (F := Ideal) x0 x1 x2 x3 (ix2 e j)
      = dense (fun k => val_main_v10 (F := Ideal) x0 x1 (ix2 e k)) (fun k j => x2 (ix2 k j)) (fun j => x3 (ix1 j)) j := by
  have el : ∀ k : Fin 32, lidx_main_v11 (ix2 e j) k = ix2 e k := fun k => funext fun a => by
    match a with
    | ⟨0, _⟩ => rfl
    | ⟨1, _⟩ => rfl
  have er : ∀ k : Fin 32, ridx_main_v11 (ix2 e j) k = ix2 k j := fun k => funext fun a => by
    match a with
    | ⟨0, _⟩ => rfl
    | ⟨1, _⟩ => rfl
  have eb : idx_main_v12 (idx_main_v13 (ix2 e j)) = ix1 j := funext fun a => by
    match a with
    | ⟨0, _⟩ => rfl
  rw [val_main_v15_apply, val_main_v14_apply, val_main_v11_apply, val_main_v13_apply, val_main_v12_apply,
    val_main_call0_v0_apply, val_main_call0_cst_apply]
  simp only [el, er, eb]
  rfl

/-- Entry `(e, j)` of rectified layer 2: the dense layer of row `e` of layer 1. -/
theorem layer2_apply (x0 : (⟨S100000x1, .f32⟩ : BufTy).Contents (Elt Ideal)) (x1 : (⟨S1000000x32, .i32⟩ : BufTy).Contents (Elt Ideal)) (x2 : (⟨S32x144, .f32⟩ : BufTy).Contents (Elt Ideal)) (x3 : (⟨S144, .f32⟩ : BufTy).Contents (Elt Ideal)) (x4 : (⟨S144x144, .f32⟩ : BufTy).Contents (Elt Ideal)) (x5 : (⟨S144, .f32⟩ : BufTy).Contents (Elt Ideal)) (e : Fin 1000000) (j : Fin 144) :
    val_main_v20 (F := Ideal) x0 x1 x2 x3 x4 x5 (ix2 e j)
      = dense (fun k => val_main_v15 (F := Ideal) x0 x1 x2 x3 (ix2 e k)) (fun k j => x4 (ix2 k j)) (fun j => x5 (ix1 j)) j := by
  have el : ∀ k : Fin 144, lidx_main_v16 (ix2 e j) k = ix2 e k := fun k => funext fun a => by
    match a with
    | ⟨0, _⟩ => rfl
    | ⟨1, _⟩ => rfl
  have er : ∀ k : Fin 144, ridx_main_v16 (ix2 e j) k = ix2 k j := fun k => funext fun a => by
    match a with
    | ⟨0, _⟩ => rfl
    | ⟨1, _⟩ => rfl
  have eb : idx_main_v17 (idx_main_v18 (ix2 e j)) = ix1 j := funext fun a => by
    match a with
    | ⟨0, _⟩ => rfl
  rw [val_main_v20_apply, val_main_v19_apply, val_main_v16_apply, val_main_v18_apply, val_main_v17_apply,
    val_main_call1_v0_apply, val_main_call1_cst_apply]
  simp only [el, er, eb]
  rfl

/-- Entry `(e, j)` of rectified layer 3: the dense layer of row `e` of layer 2. -/
theorem layer3_apply (x0 : (⟨S100000x1, .f32⟩ : BufTy).Contents (Elt Ideal)) (x1 : (⟨S1000000x32, .i32⟩ : BufTy).Contents (Elt Ideal)) (x2 : (⟨S32x144, .f32⟩ : BufTy).Contents (Elt Ideal)) (x3 : (⟨S144, .f32⟩ : BufTy).Contents (Elt Ideal)) (x4 : (⟨S144x144, .f32⟩ : BufTy).Contents (Elt Ideal)) (x5 : (⟨S144, .f32⟩ : BufTy).Contents (Elt Ideal)) (x6 : (⟨S144x144, .f32⟩ : BufTy).Contents (Elt Ideal)) (x7 : (⟨S144, .f32⟩ : BufTy).Contents (Elt Ideal)) (e : Fin 1000000) (j : Fin 144) :
    val_main_v25 (F := Ideal) x0 x1 x2 x3 x4 x5 x6 x7 (ix2 e j)
      = dense (fun k => val_main_v20 (F := Ideal) x0 x1 x2 x3 x4 x5 (ix2 e k)) (fun k j => x6 (ix2 k j)) (fun j => x7 (ix1 j)) j := by
  have el : ∀ k : Fin 144, lidx_main_v21 (ix2 e j) k = ix2 e k := fun k => funext fun a => by
    match a with
    | ⟨0, _⟩ => rfl
    | ⟨1, _⟩ => rfl
  have er : ∀ k : Fin 144, ridx_main_v21 (ix2 e j) k = ix2 k j := fun k => funext fun a => by
    match a with
    | ⟨0, _⟩ => rfl
    | ⟨1, _⟩ => rfl
  have eb : idx_main_v22 (idx_main_v23 (ix2 e j)) = ix1 j := funext fun a => by
    match a with
    | ⟨0, _⟩ => rfl
  rw [val_main_v25_apply, val_main_v24_apply, val_main_v21_apply, val_main_v23_apply, val_main_v22_apply,
    val_main_call2_v0_apply, val_main_call2_cst_apply]
  simp only [el, er, eb]
  rfl

/-- Entry `(e, j)` of rectified layer 4: the dense layer of row `e` of layer 3. -/
theorem layer4_apply (x0 : (⟨S100000x1, .f32⟩ : BufTy).Contents (Elt Ideal)) (x1 : (⟨S1000000x32, .i32⟩ : BufTy).Contents (Elt Ideal)) (x2 : (⟨S32x144, .f32⟩ : BufTy).Contents (Elt Ideal)) (x3 : (⟨S144, .f32⟩ : BufTy).Contents (Elt Ideal)) (x4 : (⟨S144x144, .f32⟩ : BufTy).Contents (Elt Ideal)) (x5 : (⟨S144, .f32⟩ : BufTy).Contents (Elt Ideal)) (x6 : (⟨S144x144, .f32⟩ : BufTy).Contents (Elt Ideal)) (x7 : (⟨S144, .f32⟩ : BufTy).Contents (Elt Ideal)) (x8 : (⟨S144x144, .f32⟩ : BufTy).Contents (Elt Ideal)) (x9 : (⟨S144, .f32⟩ : BufTy).Contents (Elt Ideal)) (e : Fin 1000000) (j : Fin 144) :
    val_main_v30 (F := Ideal) x0 x1 x2 x3 x4 x5 x6 x7 x8 x9 (ix2 e j)
      = dense (fun k => val_main_v25 (F := Ideal) x0 x1 x2 x3 x4 x5 x6 x7 (ix2 e k)) (fun k j => x8 (ix2 k j)) (fun j => x9 (ix1 j)) j := by
  have el : ∀ k : Fin 144, lidx_main_v26 (ix2 e j) k = ix2 e k := fun k => funext fun a => by
    match a with
    | ⟨0, _⟩ => rfl
    | ⟨1, _⟩ => rfl
  have er : ∀ k : Fin 144, ridx_main_v26 (ix2 e j) k = ix2 k j := fun k => funext fun a => by
    match a with
    | ⟨0, _⟩ => rfl
    | ⟨1, _⟩ => rfl
  have eb : idx_main_v27 (idx_main_v28 (ix2 e j)) = ix1 j := funext fun a => by
    match a with
    | ⟨0, _⟩ => rfl
  rw [val_main_v30_apply, val_main_v29_apply, val_main_v26_apply, val_main_v28_apply, val_main_v27_apply,
    val_main_call3_v0_apply, val_main_call3_cst_apply]
  simp only [el, er, eb]
  rfl

/-- THE REFERENCE'S RESULT is the network on every row of the array it gathers. -/
theorem result_eq (x0 : (⟨S100000x1, .f32⟩ : BufTy).Contents (Elt Ideal)) (x1 : (⟨S1000000x32, .i32⟩ : BufTy).Contents (Elt Ideal)) (x2 : (⟨S32x144, .f32⟩ : BufTy).Contents (Elt Ideal)) (x3 : (⟨S144, .f32⟩ : BufTy).Contents (Elt Ideal)) (x4 : (⟨S144x144, .f32⟩ : BufTy).Contents (Elt Ideal)) (x5 : (⟨S144, .f32⟩ : BufTy).Contents (Elt Ideal)) (x6 : (⟨S144x144, .f32⟩ : BufTy).Contents (Elt Ideal)) (x7 : (⟨S144, .f32⟩ : BufTy).Contents (Elt Ideal)) (x8 : (⟨S144x144, .f32⟩ : BufTy).Contents (Elt Ideal)) (x9 : (⟨S144, .f32⟩ : BufTy).Contents (Elt Ideal)) (x10 : (⟨S144x1, .f32⟩ : BufTy).Contents (Elt Ideal)) (x11 : (⟨S1, .f32⟩ : BufTy).Contents (Elt Ideal)) :
    val_main_v34 (F := Ideal) x0 x1 x2 x3 x4 x5 x6 x7 x8 x9 x10 x11
      = network (val_main_v10 (F := Ideal) x0 x1) x2 x3 x4 x5 x6 x7 x8 x9 x10 x11 := by
  funext i
  obtain ⟨e, u, rfl⟩ : ∃ (e : Fin 1000000) (u : Fin 1), i = ix2 e u := ⟨i 0, i 1, eq_ix2 i⟩
  obtain rfl : u = 0 := Subsingleton.elim _ _
  have el : ∀ k : Fin 144, lidx_main_v31 (ix2 e (0 : Fin 1)) k = ix2 e k := fun k => funext fun a => by
    match a with
    | ⟨0, _⟩ => rfl
    | ⟨1, _⟩ => rfl
  have er : ∀ k : Fin 144, ridx_main_v31 (ix2 e (0 : Fin 1)) k = ix2 k (0 : Fin 1) := fun k => funext fun a => by
    match a with
    | ⟨0, _⟩ => rfl
    | ⟨1, _⟩ => rfl
  have eb : idx_main_v32 (idx_main_v33 (ix2 e (0 : Fin 1))) = ix1 (0 : Fin 1) := funext fun a => by
    match a with
    | ⟨0, _⟩ => rfl
  have h1 : (fun k => val_main_v15 (F := Ideal) x0 x1 x2 x3 (ix2 e k)) = dense (fun k => val_main_v10 (F := Ideal) x0 x1 (ix2 e k)) (fun k j => x2 (ix2 k j)) (fun j => x3 (ix1 j)) :=
    funext fun k => layer1_apply x0 x1 x2 x3 e k
  have h2 : (fun k => val_main_v20 (F := Ideal) x0 x1 x2 x3 x4 x5 (ix2 e k)) = dense (dense (fun k => val_main_v10 (F := Ideal) x0 x1 (ix2 e k)) (fun k j => x2 (ix2 k j)) (fun j => x3 (ix1 j))) (fun k j => x4 (ix2 k j)) (fun j => x5 (ix1 j)) :=
    funext fun k => (layer2_apply x0 x1 x2 x3 x4 x5 e k).trans (by rw [h1])
  have h3 : (fun k => val_main_v25 (F := Ideal) x0 x1 x2 x3 x4 x5 x6 x7 (ix2 e k)) = dense (dense (dense (fun k => val_main_v10 (F := Ideal) x0 x1 (ix2 e k)) (fun k j => x2 (ix2 k j)) (fun j => x3 (ix1 j))) (fun k j => x4 (ix2 k j)) (fun j => x5 (ix1 j))) (fun k j => x6 (ix2 k j)) (fun j => x7 (ix1 j)) :=
    funext fun k => (layer3_apply x0 x1 x2 x3 x4 x5 x6 x7 e k).trans (by rw [h2])
  have h4 : (fun k => val_main_v30 (F := Ideal) x0 x1 x2 x3 x4 x5 x6 x7 x8 x9 (ix2 e k)) = dense (dense (dense (dense (fun k => val_main_v10 (F := Ideal) x0 x1 (ix2 e k)) (fun k j => x2 (ix2 k j)) (fun j => x3 (ix1 j))) (fun k j => x4 (ix2 k j)) (fun j => x5 (ix1 j))) (fun k j => x6 (ix2 k j)) (fun j => x7 (ix1 j))) (fun k j => x8 (ix2 k j)) (fun j => x9 (ix1 j)) :=
    funext fun k => (layer4_apply x0 x1 x2 x3 x4 x5 x6 x7 x8 x9 e k).trans (by rw [h3])
  rw [val_main_v34_apply, val_main_v31_apply, val_main_v33_apply, val_main_v32_apply, network_apply]
  simp only [el, er, eb]
  unfold mlp readout
  rw [← h4]
  rfl

end Cert.ReferenceIdeal.RefValue

end
-- ==== Proof.lean ====
/-
  The kernel and its reference compute one function, at the exact (extended-real) values.

  Both programs gather a 1000000 × 32 array from a 100000-row score table at positions given by an integer
  label array, and push every row through a five-layer perceptron: four rectified dense layers of width 144
  and an affine read-out to one number.  The kernel does it 8000 rows at a time on a grid of 125 points,
  rounding its operands to a shorter float format; the reference does it on whole arrays.  At the exact values
  a rounding is the identity and a matrix product is the plain sum of products, so both results are the array
  `Cert.Mlp.network` — the perceptron on every row of the gathered array (Proof/Spec.lean):

  • the kernel: row `r` of the body's result on a block is the perceptron on row `r` of the block
    (Proof/BodyValue.lean); the operands the launch finds are the gathered array, the weights, and the biases
    re-laid as one-row matrices (Proof/HostPrefix.lean); the 125 output blocks tile the result array, so the
    run ends with the result array at the perceptron on every row (Proof/KernelValue.lean);
  • the reference: entry by entry each whole-array layer is the dense layer of the row before it
    (Proof/RefValue.lean);
  • the two gathers are one: the same start indices, the same table (its rounding the identity).

  Only sums, products, maxima and additions of the same terms in the same order occur on both sides, so no
  finiteness of the inputs is needed: the precondition is never opened.  The three frames are the generated
  frame runs; the idealization rewrote nothing, so `preserves` asks nothing.
-/
import proofs.«152973_j21646635172529_2_alg».proof.Defs
import proofs.«152973_j21646635172529_2_alg».proof.Proof.Gen.Kernel
import proofs.«152973_j21646635172529_2_alg».proof.Proof.Gen.Kernel.Skeleton
import proofs.«152973_j21646635172529_2_alg».proof.Proof.Gen.Kernel.Launch
import proofs.«152973_j21646635172529_2_alg».proof.Proof.Gen.Kernel.Points
import proofs.«152973_j21646635172529_2_alg».proof.Proof.Gen.Kernel.Frame
import proofs.«152973_j21646635172529_2_alg».proof.Proof.Gen.KernelIdeal
import proofs.«152973_j21646635172529_2_alg».proof.Proof.Gen.KernelIdeal.Skeleton
import proofs.«152973_j21646635172529_2_alg».proof.Proof.Gen.KernelIdeal.Launch
import proofs.«152973_j21646635172529_2_alg».proof.Proof.Gen.KernelIdeal.Points
import proofs.«152973_j21646635172529_2_alg».proof.Proof.Gen.KernelIdeal.Frame
import proofs.«152973_j21646635172529_2_alg».proof.Proof.Gen.ReferenceIdeal
import proofs.«152973_j21646635172529_2_alg».proof.Proof.Gen.Pre_finite_inputs
import proofs.«152973_j21646635172529_2_alg».proof.Proof.Gen.KernelIdeal.Value
import proofs.«152973_j21646635172529_2_alg».proof.Proof.Gen.ReferenceIdeal.Run
import proofs.«152973_j21646635172529_2_alg».proof.Proof.Gen.ReferenceIdeal.Read
import proofs.«152973_j21646635172529_2_alg».proof.Proof.KernelValue
import proofs.«152973_j21646635172529_2_alg».proof.Proof.RefValue
import Idealize.ShloMosaic.Adequacy
import Idealize.ShloMosaic.Init

noncomputable section

namespace Cert.Proof

open Idealize.ShloMosaic Idealize.ShloMosaic.TcCoe Idealize.SL.Sem

/-- The two gathers are one array: both programs build the same start indices from the labels and read the same
    table there (the kernel's table is the rounded one, which at the exact values is the table). -/
theorem gathered_eq (s : FVec Ideal Cert.KernelIdeal.S100000x1 .f32) (l : IVec Cert.KernelIdeal.S1000000x32 32) :
    Cert.ReferenceIdeal.Read.val_main_v10 (F := Ideal) s l = Cert.KernelIdeal.Host.gathered s l := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the twelve arguments both programs end with the result array at the perceptron on
    every row of the gathered array. -/
theorem algebraic : Cert.algebraic_KernelIdeal_ReferenceIdeal := by
  intro m ρ m' ρ' _ hagree
  refine ⟨fun c => Cert.KernelIdeal.Whole.kernelResult m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v34_eq, Cert.ReferenceIdeal.RefValue.result_eq, a0, a1, a2, a3, a4, a5, a6, a7, a8, a9, a10, a11, gathered_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
